-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x64 : Shape := ⟨3, ![64, 8192, 64]⟩
abbrev S8x8 : Shape := ⟨2, ![8, 8]⟩
abbrev S_ : Shape := ⟨0, ![]⟩

class Facts : Prop where
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S64x8192x64 .f32) (main_arg1 : FVec F S8x8 .f32) : IVec S_ 1 :=
  let main_v0 : FVec F S64x8192x64 .f32 := Host.absf main_arg0
  let main_cst : FVec F S_ .f32 := constant S_ .f32 0x7F800000#32
  let main_v1 : FVec F S64x8192x64 .f32 := broadcastInDim S64x8192x64 ![] bcast_S_S64x8192x64 main_cst
  let main_v2 : IVec S64x8192x64 1 := cmpf .olt main_v0 main_v1
  let main_c : IVec S_ 1 := constantI S_ 1 1#1
  let main_v3 : IVec S_ 1 := (fun x v => Host.reduce IntOp.andi x v reducesTo_S64x8192x64_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  main_v8
-- ==== Kernel.lean ====
abbrev S64x8192x64 : Shape := ⟨3, ![64, 8192, 64]⟩
abbrev S8x8 : Shape := ⟨2, ![8, 8]⟩
abbrev S_ : Shape := ⟨0, ![]⟩
abbrev S8 : Shape := ⟨1, ![8]⟩
abbrev S64 : Shape := ⟨1, ![64]⟩
abbrev S1x1x64 : Shape := ⟨3, ![1, 1, 64]⟩
abbrev S1x8192x64 : Shape := ⟨3, ![1, 8192, 64]⟩

abbrev nBuf : Space → Nat
  | .hbm => 8
  | .vmem => 5
  | .smem => 0
  | _ => 0

abbrev bufTy : (tb : Table) → Fin (tcTables nBuf tb) → BufTy
  | .hbm, ⟨0, _⟩ => ⟨S64x8192x64, .f32⟩
  | .hbm, ⟨1, _⟩ => ⟨S8x8, .f32⟩
  | .hbm, ⟨2, _⟩ => ⟨S_, .f32⟩
  | .hbm, ⟨3, _⟩ => ⟨S8, .f32⟩
  | .hbm, ⟨4, _⟩ => ⟨S8x8, .f32⟩
  | .hbm, ⟨5, _⟩ => ⟨S64, .f32⟩
  | .hbm, ⟨6, _⟩ => ⟨S1x1x64, .f32⟩
  | .hbm, ⟨7, _⟩ => ⟨S64x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x1x64, .f32⟩
  | .local _ .vmem, ⟨3, _⟩ => ⟨S1x8192x64, .f32⟩
  | .local _ .vmem, ⟨4, _⟩ => ⟨S1x8192x64, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8x8_S8_d1 : S8x8.ReducesTo [1] S8
  h_S_ : 0 < S_.numel
  bcast_S8_S8x8_0 : S8.BroadcastsInDim S8x8 (![0] : Fin 1 → Fin S8x8.rank)
  shapeCasts_S8x8_S64 : S8x8.ShapeCasts S64
  shapeCasts_S64_S1x1x64 : S64.ShapeCasts S1x1x64
  inb_S1x8192x64_S1x8192x64_0_0_0 : ∀ a, (![0, 0, 0] : Fin 3 → Nat) a + S1x8192x64.size a ≤ S1x8192x64.size a
  h_S1x8192x64 : 0 < S1x8192x64.numel
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S1x8192x64 : S1x1x64.Broadcasts S1x8192x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S64x8192x64.size a
  hwx0_0 : ∀ i : grid0.Coords, EltTy.bits .f32 = 32 ∨ (Rect.block (s := S64x8192x64) S1x8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S1x1x64.size a
  hwx0_1 : ∀ i : grid0.Coords, EltTy.bits .f32 = 32 ∨ (Rect.block (s := S1x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S64x8192x64.size a
  hwx0_2 : ∀ i : grid0.Coords, EltTy.bits .f32 = 32 ∨ (Rect.block (s := S64x8192x64) S1x8192x64.size (cc0_transform_2 i) (hinb0_2 i)).WholeWords (EltTy.packing .f32)

variable [Facts₀]

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192x64 : Shape := ⟨3, ![64, 8192, 64]⟩
abbrev S8x8 : Shape := ⟨2, ![8, 8]⟩
abbrev S64x8192x8x8 : Shape := ⟨4, ![64, 8192, 8, 8]⟩
abbrev S_ : Shape := ⟨0, ![]⟩
abbrev S8 : Shape := ⟨1, ![8]⟩
abbrev S1x1x8x1 : Shape := ⟨4, ![1, 1, 8, 1]⟩

abbrev nBuf : Space → Nat
  | .hbm => 10
  | .vmem => 0
  | .smem => 0
  | _ => 0

abbrev bufTy : (tb : Table) → Fin (tcTables nBuf tb) → BufTy
  | .hbm, ⟨0, _⟩ => ⟨S64x8192x64, .f32⟩
  | .hbm, ⟨1, _⟩ => ⟨S8x8, .f32⟩
  | .hbm, ⟨2, _⟩ => ⟨S64x8192x8x8, .f32⟩
  | .hbm, ⟨3, _⟩ => ⟨S_, .f32⟩
  | .hbm, ⟨4, _⟩ => ⟨S8, .f32⟩
  | .hbm, ⟨5, _⟩ => ⟨S1x1x8x1, .f32⟩
  | .hbm, ⟨6, _⟩ => ⟨S64x8192x8x8, .f32⟩
  | .hbm, ⟨7, _⟩ => ⟨S64x8192x8x8, .f32⟩
  | .hbm, ⟨8, _⟩ => ⟨S64x8192x8x8, .f32⟩
  | .hbm, ⟨9, _⟩ => ⟨S64x8192x64, .f32⟩
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x8192x64_S64x8192x8x8 : S64x8192x64.ShapeCasts S64x8192x8x8
  reducesTo_S8x8_S8_d1 : S8x8.ReducesTo [1] S8
  h_S_ : 0 < S_.numel
  bcast_S8_S1x1x8x1_2 : S8.BroadcastsInDim S1x1x8x1 (![2] : Fin 1 → Fin S1x1x8x1.rank)
  bcast_S1x1x8x1_S64x8192x8x8_0_1_2_3 : S1x1x8x1.BroadcastsInDim S64x8192x8x8 (![0, 1, 2, 3] : Fin 4 → Fin S64x8192x8x8.rank)
  shapeCasts_S64x8192x8x8_S64x8192x64 : S64x8192x8x8.ShapeCasts S64x8192x64

variable [Facts₀]

class Facts : Prop extends Facts₀ where

variable [Facts]
-- ==== Proof.HeadPhase.lean ====
/-
  The function both programs compute.

  The activations `x : [64, 8192, 64]` hold, along the last axis, eight heads of eight wires each: column `d` is a wire of
  head `d / 8`. The angles `θ : [8, 8]` hold one row per head. A head's phase is the sum of its row of angles, and every
  entry of `x` is shifted by the phase of its column's head before the cosine is taken:

      out[b, t, d] = cos (x[b, t, d] + (z + Σ_k θ[d / 8, k])),

  where `z` is the value the sum is started from (both programs start it from the same word, which is never evaluated).
  All of it is over the extended reals: an infinite entry, or a phase that is infinite, goes through the same sum and the
  same cosine on both sides, so nothing here asks the inputs to be finite.
-/
import Idealize.ShloMosaic.PureOps.Ideal.Laws
import Idealize.ShloMosaic.Lib.ValueIdx

noncomputable section

namespace Cert.HeadPhase

open Idealize.ShloMosaic Idealize.ShloMosaic.ValueIdx
open scoped BigOperators

/-- The activations' shape: batch, position, and eight heads of eight wires. -/
abbrev Acts : Shape := ⟨3, ![64, 8192, 64]⟩
/-- The angles' shape: a row of eight angles per head. -/
abbrev Angles : Shape := ⟨2, ![8, 8]⟩
/-- One entry per head. -/
abbrev Heads : Shape := ⟨1, ![8]⟩

/-- The head a column of the last axis belongs to: eight consecutive columns per head. -/
def headOf (d : Fin 64) : Fin 8 := ⟨d.val / 8, by have := d.isLt; omega⟩

theorem headOf_val (d : Fin 64) : (headOf d).val = d.val / 8 := rfl

/-- A head's phase: its row of angles summed, starting from `z`. -/
def phase (z : EReal) (θ : Angles.Idx → EReal) : Heads.Idx → EReal :=
  fun h => z + ∑ k : Fin 8, θ (ix2 (n0 := 8) (n1 := 8) ⟨(h 0).val, (h 0).isLt⟩ k)

/-- Each entry shifted by the phase of its column's head, under the cosine. -/
def shiftedCos (x : Acts.Idx → EReal) (p : Heads.Idx → EReal) : Acts.Idx → EReal :=
  fun i => Ideal.cos (x i + p (ix1 (headOf ⟨(i 2).val, (i 2).isLt⟩)))

/-- The result: cos of each activation shifted by the summed angles of its head. -/
def result (z : EReal) (x : Acts.Idx → EReal) (θ : Angles.Idx → EReal) : Acts.Idx → EReal :=
  shiftedCos x (phase z θ)

/-- A host sum of the angles along each row, started from a one-element array, is the phase vector: over the extended
    reals the host's sum is the plain sum of the row added to the starting value. -/
theorem hostRowSum_eq_phase {Z : Shape} (θ : Angles.Idx → EReal) (init : Z.Idx → EReal)
    (h : Angles.ReducesTo [1] Heads) (hz : 0 < Z.numel) :
    Host.reduceAdd (F := Ideal) (φ := .f32) θ init h hz = phase (init (Shape.Idx.first hz)) θ := by
  funext j
  show FloatOps.hostReduceAdd (F := Ideal) [1] h .single θ (init (Shape.Idx.first hz)) j = _
  rw [Ideal.hostReduceAdd_def, Ideal.hostReduceAdd_single h (by decide)]
  refine congrArg (_ + ·) (Finset.sum_congr rfl fun k _ => ?_)
  exact congrArg θ (funext fun a => Fin.ext (by match a with | ⟨0, _⟩ => rfl | ⟨1, _⟩ => rfl))

end Cert.HeadPhase

end
-- ==== Proof.PhaseRow.lean ====
/-
  The kernel's second operand. Before the call, the host sums each head's row of angles, repeats every sum eight times
  (a broadcast [8] -> [8, 8] along a new last axis, then the flattening [8, 8] -> [64]) and lays the 64 numbers out as a
  [1, 1, 64] row. Read at column `d`, that row holds the phase of head `d / 8`: flattening sends (h, k) to 8 h + k.
-/
import proofs.«123322_j65481071410798_2_alg».proof.Proof.Gen.KernelIdeal.Frame
import proofs.«123322_j65481071410798_2_alg».proof.Proof.HeadPhase
import Idealize.ShloMosaic.Lib.Pipeline.Value
import Idealize.ShloMosaic.Lib.StableHlo.Run
import Idealize.ShloMosaic.Lib.ValueIdx

noncomputable section

namespace Cert.KernelIdeal.PhaseRow

open Cert.KernelIdeal Cert.KernelIdeal.Gen Idealize.ShloMosaic Idealize.ShloMosaic.TcCoe Idealize.SL.Sem
open Idealize.ShloMosaic.StableHlo Idealize.ShloMosaic.ValueIdx
open Cert.HeadPhase (headOf phase)

variable (m : (ℓ : Loc nD τ sig) → Buf (Elt Ideal) ℓ)

/-- The value the row sums start from: the host's zero constant, as a word. -/
abbrev start : EReal := Ideal.ofBits .f32 0x00000000#32

/-- What the region finds in its second operand's array: the host operations' term of the angles. -/
theorem row_term (c : Dev nD) :
    (V m c main_v3 : S1x1x64.Idx → EReal)
      = shapeCast S1x1x64 (shapeCast S64 (broadcastInDim S8x8 ![0] bcast_S8_S8x8_0
          (Host.reduceAdd (F := Ideal) (m ((c : Thread nD τ).loc main_arg1)) (constant (F := Ideal) S_ .f32 0x00000000#32) reducesTo_S8x8_S8_d1 h_S_))
          shapeCasts_S8x8_S64) shapeCasts_S64_S1x1x64 := by
  dsimp only [Gen.V, Gen.hostOps0]
  after_results
  rfl

/-- Column `d` of the row holds the phase of head `d / 8`: the [1, 1, 64] row at (0, 0, d) is the flat vector at `d`, which
    is the repeated sums at (d / 8, d % 8), which is the sum of row `d / 8` of the angles. -/
theorem row_apply (c : Dev nD) (y : S1x1x64.Idx) :
    (V m c main_v3 : S1x1x64.Idx → EReal) y
      = phase start (m ((c : Thread nD τ).loc main_arg1)) (ix1 (headOf ⟨(y 2).val, (y 2).isLt⟩)) := by
  have hy0 : (y 0).val < 1 := (y 0).isLt
  have hy1 : (y 1).val < 1 := (y 1).isLt
  have hy2 : (y 2).val < 64 := (y 2).isLt
  rw [row_term]
  -- the [1, 1, 64] row against the flat vector of 64
  refine (shapeCast_apply _ shapeCasts_S64_S1x1x64 y (ix1 (n := 64) ⟨(y 2).val, hy2⟩) ?_).trans ?_
  · rw [Shape.rowMajor_val_one, Shape.rowMajor_val_three]
    show (y 2).val = ((y 0).val * 1 + (y 1).val) * 64 + (y 2).val
    omega
  -- the flat vector against the [8, 8] table of repeated sums
  refine (shapeCast_apply _ shapeCasts_S8x8_S64 _
    (ix2 (n0 := 8) (n1 := 8) ⟨(y 2).val / 8, by omega⟩ ⟨(y 2).val % 8, by omega⟩) ?_).trans ?_
  · rw [Shape.rowMajor_val_two, Shape.rowMajor_val_one]
    show (y 2).val / 8 * 8 + (y 2).val % 8 = (y 2).val
    omega
  -- the table's entry (h, k) is the sum of head h, whatever k
  refine (broadcastInDim_apply _ bcast_S8_S8x8_0 _ _ (ix1 (n := 8) ⟨(y 2).val / 8, by omega⟩) (fun a => match a with
    | ⟨0, _⟩ => by show (y 2).val / 8 = if (8 : Nat) = 1 then 0 else (y 2).val / 8; rw [if_neg (by decide)])).trans ?_
  refine (congrFun (Cert.HeadPhase.hostRowSum_eq_phase _ _ reducesTo_S8x8_S8_d1 h_S_) _).trans ?_
  rfl

end Cert.KernelIdeal.PhaseRow

end
-- ==== Proof.WholeArray.lean ====
/-
  From blocks to the whole array. The call runs 64 grid points; point `t` works on batch row `t`: it reads the block
  [t, :, :] of the activations and the whole [1, 1, 64] phase row, and writes the block [t, :, :] of the result. Inside a
  block, entry (0, s, d) is cos of the activation at (t, s, d) shifted by the row's entry d, which is the phase of head
  d / 8. So each point writes its block of one function of the arguments, the 64 blocks tile the array, and the array ends
  holding that function everywhere.
-/
import proofs.«123322_j65481071410798_2_alg».proof.Proof.Gen.KernelIdeal.Value
import proofs.«123322_j65481071410798_2_alg».proof.Proof.PhaseRow

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)
open Cert.HeadPhase (headOf phase shiftedCos result)
open Cert.KernelIdeal.PhaseRow (start row_apply)

variable (m : (ℓ : Loc nD τ sig) → Buf (Elt Ideal) ℓ) (ρ : Dev nD → PrngReg)

/-- What the result array ends holding: the arguments as launched, through the function both programs compute. -/
abbrev out (c : Dev nD) : Buf (Elt Ideal) ((c : Thread nD τ).loc main_v4) :=
  result start (m ((c : Thread nD τ).loc main_arg0)) (m ((c : Thread nD τ).loc main_arg1))

theorem zeros3 : (![0, 0, 0] : Fin 3 → Nat) = fun _ => 0 := funext fun a => by fin_cases a <;> rfl

/-- One point's block, entry by entry: cos of the activation block's entry plus the phase row's entry of the same column. -/
theorem block_apply (x0 : Vec Ideal S1x8192x64 .f32) (x1 : Vec Ideal S1x1x64 .f32) (y : S1x8192x64.Idx) :
    out0_2 x0 x1 y = Ideal.cos (x0 y + x1 (Value.ix2_1 y)) := by
  have hy0 : (y 0).val < 1 := (y 0).isLt
  unfold out0_2
  refine (Value.canon2_eq _ _ y).trans ?_
  show Ideal.cos (View.ld x0 r0_0 (Value.ix2_0 y) + View.ld x1 r0_1 (Value.ix2_1 y)) = _
  rw [View.ld_unit_zero (S := S1x8192x64) zeros3, View.ld_unit_zero (S := S1x1x64) zeros3]
  have e : Value.ix2_0 y = y := funext fun a => Fin.ext (by
    match a with
    | ⟨0, _⟩ => show 0 = (y 0).val; omega
    | ⟨1, _⟩ => rfl
    | ⟨2, _⟩ => rfl)
  rw [e]

/-- An entry shifted by the phase of a column's head is the function at that entry, when the column is the entry's own. -/
theorem shifted_at (X : Cert.HeadPhase.Acts.Idx → EReal) (p : Cert.HeadPhase.Heads.Idx → EReal) (i : Cert.HeadPhase.Acts.Idx)
    (d : Fin 64) (hd : d.val = (i 2).val) :
    Ideal.cos (X i + p (ix1 (headOf d))) = shiftedCos X p i := by
  have e : d = ⟨(i 2).val, (i 2).isLt⟩ := Fin.ext hd
  subst e
  rfl

/-- One entry of one block: an activation read at `i`, plus the phase row read at a column that is `i`'s own, under the
    cosine, is the function at `i` — for any row whose column `d` holds the phase of head `d / 8`. -/
theorem entry_eq (X : Cert.HeadPhase.Acts.Idx → EReal) (R : S1x1x64.Idx → EReal) (p : Cert.HeadPhase.Heads.Idx → EReal)
    (hR : ∀ y : S1x1x64.Idx, R y = p (ix1 (headOf ⟨(y 2).val, (y 2).isLt⟩)))
    (i0 i : Cert.HeadPhase.Acts.Idx) (i1 : S1x1x64.Idx) (h0 : i0 = i) (h1 : (i1 2).val = (i 2).val) :
    Ideal.cos (X i0 + R i1) = shiftedCos X p i := by
  subst h0
  rw [hR]
  exact shifted_at X p i0 _ h1

/-- The index maps over the 64 points: the activations' and the result's block at point `t` is batch row `t`; the phase
    row's block is the whole row at every point. -/
theorem index_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the function of the arguments. -/
theorem flushed_eq (c : Dev nD) (t : Fin cfg0.N) :
    (dats m 0 c).flushed 2 t = ((cfg0.win 2).blk t).view.read (Elt Ideal) (out m c) := by
  rw [Value.flushed2]
  obtain ⟨a0, a1, a2, r0, r1, r2, o0, o1, o2⟩ := index_facts t
  funext j
  have hj0 : (j 0).val < 1 := (j 0).isLt
  have hj1 : (j 1).val < 8192 := (j 1).isLt
  have hj2 : (j 2).val < 64 := (j 2).isLt
  show out0_2 (iblk m c 0 t) (iblk m c 1 t) j = out m c (((cfg0.win 2).blk t).view.emb j)
  refine (block_apply _ _ j).trans ?_
  have hX : (V m c main_arg0 : S64x8192x64.Idx → EReal) = m ((c : Thread nD τ).loc main_arg0) := V_main_arg0 m c
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 8192 + 1 * (j 1).val = win0_2.index t (1 : Fin 3) * 8192 + 1 * (j 1).val; omega
    | ⟨2, _⟩ => show win0_0.index t (2 : Fin 3) * 64 + 1 * (j 2).val = win0_2.index t (2 : Fin 3) * 64 + 1 * (j 2).val; omega
  have h1 : ((((cfg0.win 1).blk t).view.emb (Value.ix2_1 j)) 2).val = ((((cfg0.win 2).blk t).view.emb j) 2).val := by
    show win0_1.index t (2 : Fin 3) * 64 + 1 * (j 2).val = win0_2.index t (2 : Fin 3) * 64 + 1 * (j 2).val
    omega
  refine (entry_eq (V m c main_arg0) (V m c main_v3) (phase start (m ((c : Thread nD τ).loc main_arg1))) (row_apply m c)
    (((cfg0.win 0).blk t).view.emb j) (((cfg0.win 2).blk t).view.emb j) (((cfg0.win 1).blk t).view.emb (Value.ix2_1 j)) h0 h1).trans ?_
  rw [hX]
  rfl

/-- An index of the result is in point `t`'s block iff each coordinate is in the block's range on its axis. -/
theorem mem_block (t : Fin cfg0.N) (i : S64x8192x64.Idx) :
    i ∈ ((cfg0.win 2).blk t).view.set ↔ ∀ a : Fin 3, win0_2.index t a * S1x8192x64.size a ≤ (i a).val
      ∧ (i a).val < win0_2.index t a * S1x8192x64.size a + S1x8192x64.size a := by
  show i ∈ ((View.whole main_v4).slice (win0_2.rect t)).set ↔ _
  rw [View.set_slice_whole, Rect.mem_set_unit]
  exact Iff.rfl

/-- The 64 blocks tile the result: the entry (b, s, d) is in the block of point `b`. -/
theorem covered (i : S64x8192x64.Idx) :
    ∃ t : Fin cfg0.N, (cfg0.win 2).flush t = true ∧ i ∈ ((cfg0.win 2).blk t).view.set := by
  have hi0 : (i 0).val < 64 := (i 0).isLt
  have hi1 : (i 1).val < 8192 := (i 1).isLt
  have hi2 : (i 2).val < 64 := (i 2).isLt
  have hN : (i 0).val < cfg0.N := by rw [show cfg0.N = 64 from N_0]; exact hi0
  obtain ⟨-, -, -, -, -, -, o0, o1, o2⟩ := index_facts ⟨(i 0).val, hN⟩
  refine ⟨⟨(i 0).val, hN⟩, flush0_2 _, ?_⟩
  rw [mem_block]
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [o0]; show (i 0).val * 1 ≤ (i 0).val ∧ (i 0).val < (i 0).val * 1 + 1; omega
  | ⟨1, _⟩ =>
    show win0_2.index ⟨(i 0).val, hN⟩ (1 : Fin 3) * 8192 ≤ (i 1).val ∧ (i 1).val < win0_2.index ⟨(i 0).val, hN⟩ (1 : Fin 3) * 8192 + 8192
    rw [o1]; omega
  | ⟨2, _⟩ =>
    show win0_2.index ⟨(i 0).val, hN⟩ (2 : Fin 3) * 64 ≤ (i 2).val ∧ (i 2).val < win0_2.index ⟨(i 0).val, hN⟩ (2 : Fin 3) * 64 + 64
    rw [o2]; omega

/-- So the result array ends holding the function of the arguments, everywhere. -/
theorem final (c : Dev nD) : (dats m 0 c).arrAt 2 cfg0.N = out m c :=
  (dats m 0 c).arrAt_eq_of_cover 2 (out m c) (fun t _ => flushed_eq m c t) covered

/-- The kernel's run, read: the result array at the function of the arguments as launched, the arguments unchanged. -/
theorem run : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.HeadView.lean ====
/-
  The reference. It views the activations as [64, 8192, 8, 8] (batch, position, head, wire), adds to every wire its head's
  phase (the row sums of the angles, spread along the three other axes), takes the cosine and flattens the two last axes
  back into one. Entry (b, s, d) of its result comes from (b, s, d / 8, d % 8) of the four-axis view: that is entry
  (b, s, d) of the activations, and the phase added there is the one of head d / 8. So the reference is the same function
  of its arguments as the kernel, entry by entry.
-/
import proofs.«123322_j65481071410798_2_alg».proof.Proof.Gen.ReferenceIdeal.Read
import proofs.«123322_j65481071410798_2_alg».proof.Proof.HeadPhase

noncomputable section

namespace Cert.ReferenceIdeal.HeadView

open Cert.ReferenceIdeal Cert.ReferenceIdeal.Gen Cert.ReferenceIdeal.Read Idealize.ShloMosaic Idealize.ShloMosaic.TcCoe
open Idealize.ShloMosaic.ValueIdx
open Cert.HeadPhase (headOf phase shiftedCos result)

/-- The value the row sums start from: the host's zero constant, as a word. -/
abbrev start : EReal := Ideal.ofBits .f32 0x00000000#32

/-- The reference's row sums of the angles are the phase vector. -/
theorem rowSums_eq (θ : S8x8.Idx → EReal) : val_main_v1 (F := Ideal) θ = phase start θ :=
  Cert.HeadPhase.hostRowSum_eq_phase θ _ reducesTo_S8x8_S8_d1 h_S_

/-- Splitting the last axis into (head, wire) and joining it back returns to the same entry. -/
theorem split_join (i : S64x8192x64.Idx) : idx_main_v0 (idx_main_v6 i) = i := by
  have h0 : (i 0).val < 64 := (i 0).isLt
  have h1 : (i 1).val < 8192 := (i 1).isLt
  have h2 : (i 2).val < 64 := (i 2).isLt
  funext a; apply Fin.ext
  match a with
  | ⟨0, _⟩ => show (((((((i 0).val * 8192 + (i 1).val) * 64 + (i 2).val) / 524288) * 8192 + ((((i 0).val * 8192 + (i 1).val) * 64 + (i 2).val) / 64 % 8192)) * 8 + ((((i 0).val * 8192 + (i 1).val) * 64 + (i 2).val) / 8 % 8)) * 8 + ((((i 0).val * 8192 + (i 1).val) * 64 + (i 2).val) % 8)) / 524288 = (i 0).val; omega
  | ⟨1, _⟩ => show (((((((i 0).val * 8192 + (i 1).val) * 64 + (i 2).val) / 524288) * 8192 + ((((i 0).val * 8192 + (i 1).val) * 64 + (i 2).val) / 64 % 8192)) * 8 + ((((i 0).val * 8192 + (i 1).val) * 64 + (i 2).val) / 8 % 8)) * 8 + ((((i 0).val * 8192 + (i 1).val) * 64 + (i 2).val) % 8)) / 64 % 8192 = (i 1).val; omega
  | ⟨2, _⟩ => show (((((((i 0).val * 8192 + (i 1).val) * 64 + (i 2).val) / 524288) * 8192 + ((((i 0).val * 8192 + (i 1).val) * 64 + (i 2).val) / 64 % 8192)) * 8 + ((((i 0).val * 8192 + (i 1).val) * 64 + (i 2).val) / 8 % 8)) * 8 + ((((i 0).val * 8192 + (i 1).val) * 64 + (i 2).val) % 8)) % 64 = (i 2).val; omega

/-- The phase the reference adds at entry (b, s, d) is the one of head d / 8. -/
theorem head_index (i : S64x8192x64.Idx) :
    idx_main_v2 (idx_main_v3 (idx_main_v6 i)) = ix1 (headOf ⟨(i 2).val, (i 2).isLt⟩) := by
  have h0 : (i 0).val < 64 := (i 0).isLt
  have h1 : (i 1).val < 8192 := (i 1).isLt
  have h2 : (i 2).val < 64 := (i 2).isLt
  funext a; apply Fin.ext
  match a with
  | ⟨0, _⟩ => show (((i 0).val * 8192 + (i 1).val) * 64 + (i 2).val) / 8 % 8 = (i 2).val / 8; omega

/-- The reference's last stage is the function of its arguments, entry by entry. -/
theorem stage_eq (x : S64x8192x64.Idx → EReal) (θ : S8x8.Idx → EReal) :
    val_main_v6 (F := Ideal) x θ = result start x θ := by
  funext i
  rw [val_main_v6_apply, val_main_v5_apply, val_main_v4_apply, val_main_v0_apply, val_main_v3_apply, val_main_v2_apply,
    split_join, head_index, rowSums_eq]
  rfl

end Cert.ReferenceIdeal.HeadView

end
-- ==== Proof.lean ====
/-
  cos(x + phase of the head), tiled over the batch, against the same formula written over a (head, wire) view.

  The kernel sums each head's row of the [8, 8] angles on the host, repeats each sum eight times into a [1, 1, 64] row,
  and then, one batch row per grid point, writes cos (x[b, s, d] + row[d]). The reference views x as [64, 8192, 8, 8],
  adds the same row sums along the head axis, takes the cosine and flattens back. Column `d` of the last axis is wire
  `d % 8` of head `d / 8`, so both are

      out[b, s, d] = cos (x[b, s, d] + (z + Σ_k θ[d / 8, k]))

  over the extended reals (`z` the value of the zero word both sums start from). The two sides apply the same sum and the
  same cosine to the same numbers — only the layout differs — so no law of arithmetic is used and the inputs' finiteness is
  never opened.

  HeadPhase states the function and reads a host row sum as the phase; PhaseRow reads the kernel's [1, 1, 64] row at a
  column; WholeArray goes from the 64 blocks to the whole result array; HeadView reads the reference entry by entry. Here
  the three frames, the (empty) idealization ledger and the equality of the two results are put together.
-/
import proofs.«123322_j65481071410798_2_alg».proof.Defs
import proofs.«123322_j65481071410798_2_alg».proof.Proof.Gen.Kernel
import proofs.«123322_j65481071410798_2_alg».proof.Proof.Gen.Kernel.Frame
import proofs.«123322_j65481071410798_2_alg».proof.Proof.Gen.KernelIdeal
import proofs.«123322_j65481071410798_2_alg».proof.Proof.Gen.KernelIdeal.Frame
import proofs.«123322_j65481071410798_2_alg».proof.Proof.Gen.KernelIdeal.Value
import proofs.«123322_j65481071410798_2_alg».proof.Proof.Gen.ReferenceIdeal
import proofs.«123322_j65481071410798_2_alg».proof.Proof.Gen.ReferenceIdeal.Run
import proofs.«123322_j65481071410798_2_alg».proof.Proof.Gen.ReferenceIdeal.Read
import proofs.«123322_j65481071410798_2_alg».proof.Proof.Gen.Pre_finite_inputs
import proofs.«123322_j65481071410798_2_alg».proof.Proof.HeadPhase
import proofs.«123322_j65481071410798_2_alg».proof.Proof.PhaseRow
import proofs.«123322_j65481071410798_2_alg».proof.Proof.WholeArray
import proofs.«123322_j65481071410798_2_alg».proof.Proof.HeadView
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the kernel over the extended reals is the kernel's own text. -/
theorem preserves : Cert.preserves_Kernel_KernelIdeal := trivial

/-- From memories that agree on `x` and `θ`, both programs end with cos (x[b, s, d] + Σ_k θ[d / 8, k]) in every entry:
    the kernel by its 64 blocks, the reference by its (head, wire) view. -/
theorem algebraic : Cert.algebraic_KernelIdeal_ReferenceIdeal := by
  intro m ρ m' ρ' _ hagree
  refine ⟨fun c => Cert.KernelIdeal.WholeArray.out m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v6_eq, Cert.ReferenceIdeal.HeadView.stage_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
